-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : IVec S4096x4096 1) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .i1⟩
  | .hbm, ⟨3, _⟩ => ⟨S4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S8192x4096, .bf16⟩
  | .hbm, ⟨9, _⟩ => ⟨S1x4096, .f32⟩
  | .hbm, ⟨10, _⟩ => ⟨S8192x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v2) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .i1⟩
  | .hbm, ⟨3, _⟩ => ⟨S4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Payloads.lean ====
/-
  The kernel body's three stored values, read at one entry of the [2048, 1024] output block, over the extended reals.

  The body keeps a running block `acc`. On the first step of a run it is cleared to zero; on every step the product
  of the current x block [2048, 512] with the transposed weight block [1024, 512] is added to it; on the last step
  the bias row [1, 1024] is added to every row. Entry (p, q) of each stored value is therefore

    cleared      : 0
    accumulated  : acc(p, q) + Σ_k x(p, k) · w(q, k)      (k over the 512 columns of the two blocks)
    with bias    : acc(p, q) + bias(0, q)

  Only the definitions of sum, product and broadcast are used; nothing here needs the entries to be finite.
-/
import proofs.«170273_j33251636806222_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Entry

open Cert.KernelIdeal Cert.KernelIdeal.Gen Idealize.ShloMosaic Idealize.ShloMosaic.ValueIdx
open scoped BigOperators

/-- The record of the body's matrix product: x block [2048, 512] against weight block [1024, 512], both contracted
    on their second axis. -/
abbrev D := dot_S2048x512_S1024x512_S2048x1024_1_1_0_0_n_n

/-- The cleared block is zero everywhere. -/
theorem cleared_apply (j : S2048x1024.Idx) : k0_pay1 (F := Ideal) j = 0 := by
  show Ideal.ofBits .f32 0x00000000#32 = 0
  exact Ideal.ofBits_zero_f32

/-- On its first axis the left factor's index is the output row. -/
theorem lhs_row (j : S2048x1024.Idx) (c : D.contr.Idx) : (D.lhsIdx j c 0).val = (j 0).val := by
  unfold DotDims.lhsIdx
  rw [dif_neg (show ¬(0 : Fin S2048x512.rank) ∈ D.lhsBatch by decide),
    dif_pos (show (0 : Fin S2048x512.rank) ∈ D.lhsNonContracting by decide)]
  rfl

/-- On its second axis it is the contraction position. -/
theorem lhs_col (j : S2048x1024.Idx) (c : D.contr.Idx) : (D.lhsIdx j c 1).val = (c ⟨0, by decide⟩).val :=
  D.lhsIdx_val_of_single rfl j c

/-- On its first axis the right factor's index is the output column: the weight block is stored column first. -/
theorem rhs_row (j : S2048x1024.Idx) (c : D.contr.Idx) : (D.rhsIdx j c 0).val = (j 1).val := by
  unfold DotDims.rhsIdx
  rw [dif_neg (show ¬(0 : Fin S1024x512.rank) ∈ D.rhsBatch by decide),
    dif_pos (show (0 : Fin S1024x512.rank) ∈ D.rhsNonContracting by decide)]
  rfl

/-- On its second axis it is the contraction position. -/
theorem rhs_col (j : S2048x1024.Idx) (c : D.contr.Idx) : (D.rhsIdx j c 1).val = (c ⟨0, by decide⟩).val :=
  D.rhsIdx_val_of_single rfl j c

/-- The left factor of the product at output entry (p, q) and contraction position k is x(p, k). -/
theorem lhs_eq (p : Fin 2048) (q : Fin 1024) (k : Fin 512) :
    D.lhsIdx (ix2 p q) ((contrEquiv1 D 512 rfl rfl).symm k) = ix2 p k :=
  funext fun a => Fin.ext (by
    match a with
    | ⟨0, _⟩ => exact lhs_row _ _
    | ⟨1, _⟩ => exact (lhs_col _ _).trans (contrEquiv1_symm_val D 512 rfl rfl k))

/-- The right factor is w(q, k). -/
theorem rhs_eq (p : Fin 2048) (q : Fin 1024) (k : Fin 512) :
    D.rhsIdx (ix2 p q) ((contrEquiv1 D 512 rfl rfl).symm k) = ix2 q k :=
  funext fun a => Fin.ext (by
    match a with
    | ⟨0, _⟩ => exact rhs_row _ _
    | ⟨1, _⟩ => exact (rhs_col _ _).trans (contrEquiv1_symm_val D 512 rfl rfl k))

/-- The accumulated block at (p, q): what was there plus the 512-term product sum of row p of x with row q of w. -/
theorem accumulated_apply (acc : Vec Ideal S2048x1024 .f32) (x : Vec Ideal S2048x512 .bf16) (w : Vec Ideal S1024x512 .bf16)
    (p : Fin 2048) (q : Fin 1024) :
    k0_pay2 (F := Ideal) acc x w (ix2 p q) = acc (ix2 p q) + ∑ k : Fin 512, x (ix2 p k) * w (ix2 q k) := by
  unfold k0_pay2
  simp only [shapeCast_self]
  rw [addf_apply]
  refine congrArg (acc (ix2 p q) + ·) ?_
  simp only [matmul]
  rw [Ideal.matmul_constant_zero_apply, ← Equiv.sum_comp (contrEquiv1 D 512 rfl rfl).symm]
  refine Finset.sum_congr rfl fun k _ => ?_
  rw [lhs_eq, rhs_eq]

/-- The block with the bias added at (p, q): what was there plus the bias row's entry in column q. -/
theorem biased_apply (acc : Vec Ideal S2048x1024 .f32) (bias : Vec Ideal S1x1024 .f32) (p : Fin 2048) (q : Fin 1024) :
    k0_pay3 (F := Ideal) acc bias (ix2 p q) = acc (ix2 p q) + bias (ix2 (0 : Fin 1) q) := by
  unfold k0_pay3
  simp only [shapeCast_self]
  rw [addf_apply, broadcastTo_1b_ab_apply]

end Cert.KernelIdeal.Entry

end
-- ==== Proof.Fold.lean ====
/-
  The accumulator over one run of eight consecutive grid steps, read at one entry of the output block.

  A run starts at a step b that is a multiple of 8. Step b clears the block and adds the first product; steps
  b+1 … b+6 each add their product; step b+7 adds its product and then the bias row. With `addend n` the 512-term
  product sum of step n at entry (p, q), the block after step b+7 holds at (p, q)

      ((0 + Σ_{s<7} addend (b+s)) + addend (b+7)) + bias(0, q).

  The blocks are taken here as arbitrary sequences indexed by the step, so the statement is about the arithmetic of the
  accumulation only.
-/
import proofs.«170273_j33251636806222_2_alg».proof.Proof.Payloads

noncomputable section

namespace Cert.KernelIdeal.Entry

open Cert.KernelIdeal Cert.KernelIdeal.Gen Idealize.ShloMosaic Idealize.ShloMosaic.ValueIdx
open scoped BigOperators

variable {N : ℕ}
variable (X : (n : ℕ) → n < N → Vec Ideal S2048x512 .bf16) (W : (n : ℕ) → n < N → Vec Ideal S1024x512 .bf16)
  (Bv : (n : ℕ) → n < N → Vec Ideal S1x1024 .f32)

/-- What a run's first step leaves: the cleared block with that step's product added. -/
def first (n : ℕ) (h : n < N) : Vec Ideal S2048x1024 .f32 := k0_pay2 (k0_pay1 (F := Ideal)) (X n h) (W n h)

/-- What a later step leaves, from what the step before left: a middle step adds its product, the run's last step
    (≡ 7 mod 8) adds its product and then the bias row. -/
def next (n : ℕ) (h : n < N) (acc : Vec Ideal S2048x1024 .f32) : Vec Ideal S2048x1024 .f32 :=
  if ¬n % 8 = 0 ∧ ¬n % 8 = 7 then k0_pay2 acc (X n h) (W n h)
  else if ¬n % 8 = 0 ∧ n % 8 = 7 then k0_pay3 (k0_pay2 acc (X n h) (W n h)) (Bv n h)
  else acc

/-- Step n's contribution to entry (p, q): row p of its x block against row q of its weight block. -/
def addend (p : Fin 2048) (q : Fin 1024) (n : ℕ) : EReal :=
  if h : n < N then ∑ k : Fin 512, X n h (ix2 p k) * W n h (ix2 q k) else 0

theorem first_apply (b : ℕ) (h : b < N) (p : Fin 2048) (q : Fin 1024) :
    first X W b h (ix2 p q) = 0 + addend X W p q b := by
  unfold first addend
  rw [dif_pos h, accumulated_apply, cleared_apply]

theorem next_middle (n : ℕ) (h : n < N) (acc : Vec Ideal S2048x1024 .f32) (p : Fin 2048) (q : Fin 1024)
    (h0 : ¬n % 8 = 0) (h7 : ¬n % 8 = 7) :
    next X W Bv n h acc (ix2 p q) = acc (ix2 p q) + addend X W p q n := by
  unfold next addend
  rw [if_pos ⟨h0, h7⟩, dif_pos h, accumulated_apply]

theorem next_last (n : ℕ) (h : n < N) (acc : Vec Ideal S2048x1024 .f32) (p : Fin 2048) (q : Fin 1024)
    (h7 : n % 8 = 7) :
    next X W Bv n h acc (ix2 p q) = (acc (ix2 p q) + addend X W p q n) + Bv n h (ix2 (0 : Fin 1) q) := by
  unfold next addend
  rw [if_neg (by omega), if_pos ⟨by omega, h7⟩, dif_pos h, biased_apply, accumulated_apply]

/-- The whole run at entry (p, q). -/
theorem run_apply (b : ℕ) (hb : b % 8 = 0) (h : b + 7 < N) (p : Fin 2048) (q : Fin 1024) :
    Pipeline.accAt (first X W) (next X W Bv) b 7 h (ix2 p q)
      = ((0 + ∑ s ∈ Finset.range 7, addend X W p q (b + s)) + addend X W p q (b + 7)) + Bv (b + 7) h (ix2 (0 : Fin 1) q) := by
  rw [Pipeline.accAt_succ, next_last X W Bv (b + (6 + 1)) h _ p q (by omega)]
  have six := Pipeline.accAt_add_apply (ι := S2048x1024.Idx) (β := EReal) (first X W) (next X W Bv) (fun _ => 0)
    (fun n i => addend X W (i 0) (i 1) n) b 6
    (fun hb' i => by
      obtain ⟨p', q', rfl⟩ : ∃ (p' : Fin 2048) (q' : Fin 1024), i = ix2 p' q' := ⟨i 0, i 1, eq_ix2 i⟩
      exact first_apply X W b hb' p' q')
    (fun n hn acc i h1 h2 => by
      obtain ⟨p', q', rfl⟩ : ∃ (p' : Fin 2048) (q' : Fin 1024), i = ix2 p' q' := ⟨i 0, i 1, eq_ix2 i⟩
      exact next_middle X W Bv n hn acc p' q' (by omega) (by omega))
    6 le_rfl (Nat.lt_of_succ_lt h) (ix2 p q)
  rw [six]

end Cert.KernelIdeal.Entry

end
-- ==== Proof.Staged.lean ====
/-
  The three arrays the kernel's region reads, as the host operations before it leave them, over the extended reals:
  the x operand is the argument x (the change of float format is the identity on values), the weight operand is the
  masked weight `where(mask, W, 0)` (likewise), and the bias operand is the bias vector laid out as one row.
-/
import proofs.«170273_j33251636806222_2_alg».proof.Proof.Gen.KernelIdeal.Frame
import Idealize.ShloMosaic.Lib.StableHlo.Run
import Idealize.ShloMosaic.Lib.ValueIdx

noncomputable section

namespace Cert.KernelIdeal.Staged

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ)

/-- The masked weight: W where the mask is set, zero elsewhere. -/
def maskedW (c : Dev nD) : S4096x4096.Idx → EReal :=
  select (m ((c : Thread nD τ).loc main_arg2)) (m ((c : Thread nD τ).loc main_arg1))
    (broadcastInDim S4096x4096 ![] bcast_S_S4096x4096 (constant (F := Ideal) S_ .f32 0x00000000#32))

/-- The x operand is x. -/
theorem x_eq (c : Dev nD) :
    (V m c main_v2 : S8192x4096.Idx → EReal) = m ((c : Thread nD τ).loc main_arg0) := by
  dsimp only [V]
  simp only [hostOps0, hostOps0_1, hostOps0_2, List.flatten_cons, List.flatten_nil, List.append_nil, List.cons_append,
    List.nil_append]
  after_results
  rfl

/-- The weight operand is the masked weight. -/
theorem w_eq (c : Dev nD) :
    (V m c main_v1 : S4096x4096.Idx → EReal) = maskedW m c := by
  dsimp only [V]
  simp only [hostOps0, hostOps0_1, hostOps0_2, List.flatten_cons, List.flatten_nil, List.append_nil, List.cons_append,
    List.nil_append]
  after_results
  rfl

/-- The bias operand is the bias vector as a single row. -/
theorem b_eq (c : Dev nD) :
    (V m c main_v3 : S1x4096.Idx → EReal)
      = shapeCast S1x4096 (m ((c : Thread nD τ).loc main_arg3)) shapeCasts_S4096_S1x4096 := by
  dsimp only [V]
  simp only [hostOps0, hostOps0_1, hostOps0_2, List.flatten_cons, List.flatten_nil, List.append_nil, List.cons_append,
    List.nil_append]
  after_results
  rfl

end Cert.KernelIdeal.Staged

end
-- ==== Proof.Blocks.lean ====
/-
  The blocks the body loads at grid step t, read at an entry as entries of the argument arrays.

  The grid has 4 × 4 × 8 = 128 steps; step t stands for row block t / 32, column block (t / 8) % 4 and contraction
  block t % 8. At step t
    the x block [2048, 512] is rows 2048·(t/32) …, columns 512·(t%8) … of x;
    the weight block [1024, 512] is rows 1024·((t/8)%4) …, columns 512·(t%8) … of the masked weight;
    the bias block [1, 1024] is columns 1024·((t/8)%4) … of the bias row.
  A block's entry sits in its array, on each axis, at block index × block size + the entry's own coordinate.
-/
import proofs.«170273_j33251636806222_2_alg».proof.Proof.Staged
import Idealize.ShloMosaic.Lib.ValueLayout
import Idealize.ShloMosaic.Lib.Pipeline.Value

noncomputable section

namespace Cert.KernelIdeal.Staged

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ)

/-- The x window's block indices at step t. -/
theorem idx_x : ∀ t : Fin cfg0.N, win0_0.index t (0 : Fin 2) = t.val / 32 ∧ win0_0.index t (1 : Fin 2) = t.val % 8 :=
  (by decide +kernel : ∀ t : Fin grid0.N, _)

/-- The weight window's block indices at step t. -/
theorem idx_w : ∀ t : Fin cfg0.N, win0_1.index t (0 : Fin 2) = t.val / 8 % 4 ∧ win0_1.index t (1 : Fin 2) = t.val % 8 :=
  (by decide +kernel : ∀ t : Fin grid0.N, _)

/-- The bias window's block indices at step t. -/
theorem idx_b : ∀ t : Fin cfg0.N, win0_2.index t (0 : Fin 2) = 0 ∧ win0_2.index t (1 : Fin 2) = t.val / 8 % 4 :=
  (by decide +kernel : ∀ t : Fin grid0.N, _)

/-- Entry (p, k) of the x block at step t is x(r, κ) for the row r and column κ the block's place gives. -/
theorem x_block (c : Dev nD) (t : Fin cfg0.N) (p : Fin 2048) (k : Fin 512) (r : Fin 8192) (κ : Fin 4096)
    (hr : r.val = t.val / 32 * 2048 + p.val) (hκ : κ.val = t.val % 8 * 512 + k.val) :
    (iblk m c 0 t : Vec Ideal S2048x512 .bf16) (ix2 p k) = m ((c : Thread nD τ).loc main_arg0) (ix2 r κ) := by
  obtain ⟨e0, e1⟩ := idx_x t
  show (V m c main_v2 : S8192x4096.Idx → EReal) (((cfg0.win 0).blk t).view.emb (ix2 p k)) = _
  rw [x_eq]
  refine congrArg _ (funext fun a => Fin.ext ?_)
  match a with
  | ⟨0, _⟩ => show win0_0.index t (0 : Fin 2) * 2048 + 1 * p.val = r.val; omega
  | ⟨1, _⟩ => show win0_0.index t (1 : Fin 2) * 512 + 1 * k.val = κ.val; omega

/-- Entry (q, k) of the weight block at step t is the masked weight at (o, κ). -/
theorem w_block (c : Dev nD) (t : Fin cfg0.N) (q : Fin 1024) (k : Fin 512) (o : Fin 4096) (κ : Fin 4096)
    (ho : o.val = t.val / 8 % 4 * 1024 + q.val) (hκ : κ.val = t.val % 8 * 512 + k.val) :
    (iblk m c 1 t : Vec Ideal S1024x512 .bf16) (ix2 q k) = maskedW m c (ix2 o κ) := by
  obtain ⟨e0, e1⟩ := idx_w t
  show (V m c main_v1 : S4096x4096.Idx → EReal) (((cfg0.win 1).blk t).view.emb (ix2 q k)) = _
  rw [w_eq]
  refine congrArg _ (funext fun a => Fin.ext ?_)
  match a with
  | ⟨0, _⟩ => show win0_1.index t (0 : Fin 2) * 1024 + 1 * q.val = o.val; omega
  | ⟨1, _⟩ => show win0_1.index t (1 : Fin 2) * 512 + 1 * k.val = κ.val; omega

/-- Entry (0, q) of the bias block at step t is the bias at o. -/
theorem b_block (c : Dev nD) (t : Fin cfg0.N) (q : Fin 1024) (o : Fin 4096)
    (ho : o.val = t.val / 8 % 4 * 1024 + q.val) :
    (iblk m c 2 t : Vec Ideal S1x1024 .f32) (ix2 (0 : Fin 1) q) = m ((c : Thread nD τ).loc main_arg3) (ix1 o) := by
  obtain ⟨e0, e1⟩ := idx_b t
  show (V m c main_v3 : S1x4096.Idx → EReal) (((cfg0.win 2).blk t).view.emb (ix2 (0 : Fin 1) q)) = _
  rw [b_eq]
  have e : (((cfg0.win 2).blk t).view.emb (ix2 (0 : Fin 1) q) : S1x4096.Idx) = ix2 (0 : Fin 1) o :=
    funext fun a => Fin.ext (by
      match a with
      | ⟨0, _⟩ => show win0_2.index t (0 : Fin 2) * 1 + 1 * 0 = 0; omega
      | ⟨1, _⟩ => show win0_2.index t (1 : Fin 2) * 1024 + 1 * q.val = o.val; omega)
  rw [e, shapeCast_a_1a_apply]

end Cert.KernelIdeal.Staged

end
-- ==== Proof.BlockSum.lean ====
/-
  The one law that joins the two sides, in any commutative additive monoid (so in particular over the extended reals,
  with no finiteness asked): a sum over 4096 positions is the sum, over 8 consecutive blocks, of each block's 512
  positions; and adding the blocks one after the other into a cleared accumulator, then a last term, gives that sum
  plus the last term. Only associativity, commutativity and `0 + a = a` are used.
-/
import Mathlib.Algebra.BigOperators.Fin
import Mathlib.Logic.Equiv.Fin.Basic

open scoped BigOperators

namespace Cert.BlockSum

variable {β : Type*} [AddCommMonoid β]

/-- Position k of block s is position 512·s + k of the whole. -/
def pos (s : Fin 8) (k : Fin 512) : Fin 4096 := ⟨512 * s.val + k.val, by have := s.isLt; have := k.isLt; omega⟩

/-- A sum over 4096 positions, taken block by block. -/
theorem sum_by_blocks (g : Fin 4096 → β) : ∑ k : Fin 4096, g k = ∑ s : Fin 8, ∑ k : Fin 512, g (pos s k) := by
  rw [← Equiv.sum_comp (finProdFinEquiv : Fin 8 × Fin 512 ≃ Fin 4096) g, Fintype.sum_prod_type]
  refine Finset.sum_congr rfl fun s _ => Finset.sum_congr rfl fun k _ => congrArg g (Fin.ext ?_)
  show k.val + 512 * s.val = 512 * s.val + k.val
  omega

/-- The accumulator's history: cleared, the first seven blocks' sums added in order, then the eighth, then a last
    term `e`. If the s-th addend is block s's sum, the result is the whole sum plus `e`. -/
theorem accumulate_eq (g : Fin 4096 → β) (A : ℕ → β) (e : β)
    (hA : ∀ s : Fin 8, A s.val = ∑ k : Fin 512, g (pos s k)) :
    ((0 + ∑ s ∈ Finset.range 7, A s) + A 7) + e = (∑ k : Fin 4096, g k) + e := by
  rw [zero_add, ← Finset.sum_range_succ A 7, Finset.sum_range, sum_by_blocks]
  exact congrArg (· + e) (Finset.sum_congr rfl fun s _ => hA s)

end Cert.BlockSum
-- ==== Proof.Spec.lean ====
/-
  The result both programs compute, as one function of the argument arrays over the extended reals:
  entry (r, o) of the output is  Σ_k x(r, k) · w(o, k)  +  b(o),  k over the 4096 input features, where w is the weight
  matrix with its masked-out entries replaced by zero.
-/
import Idealize.ShloMosaic.Lib.ValueIdx
import Idealize.ShloMosaic.PureOps.Ideal

noncomputable section

open Idealize.ShloMosaic Idealize.ShloMosaic.ValueIdx
open scoped BigOperators

namespace Cert.Spec

/-- The masked linear layer: x · wᵀ + b, entry by entry. -/
def G (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => (∑ k : Fin 4096, x (ix2 (i 0) k) * w (ix2 (i 1) k)) + b (ix1 (i 1))

theorem G_apply (x : (⟨2, ![8192, 4096]⟩ : Shape).Idx → EReal) (w : (⟨2, ![4096, 4096]⟩ : Shape).Idx → EReal)
    (b : (⟨1, ![4096]⟩ : Shape).Idx → EReal) (r : Fin 8192) (o : Fin 4096) :
    G x w b (ix2 r o) = (∑ k : Fin 4096, x (ix2 r k) * w (ix2 o k)) + b (ix1 o) := rfl

end Cert.Spec

end
-- ==== Proof.KernelValue.lean ====
/-
  The kernel's output array is the masked linear layer `Spec.G` of the arguments.

  Output entry (r, o) lies in the output block of row block r / 2048 and column block o / 1024, at place
  (r % 2048, o % 1024). That block is produced by the run of eight grid steps starting at step
  b = 8 · (4 · (r / 2048) + o / 1024); step b + s loads columns 512·s … of row block r / 2048 of x and of row block
  o / 1024 of the masked weight, so its contribution to the entry is Σ_{k<512} x(r, 512·s + k) · w(o, 512·s + k), and the
  last step adds b(o). Summing the eight contributions in order is the sum over all 4096 columns.
-/
import proofs.«170273_j33251636806222_2_alg».proof.Proof.Gen.KernelIdeal.Value
import proofs.«170273_j33251636806222_2_alg».proof.Proof.Fold
import proofs.«170273_j33251636806222_2_alg».proof.Proof.Blocks
import proofs.«170273_j33251636806222_2_alg».proof.Proof.BlockSum
import proofs.«170273_j33251636806222_2_alg».proof.Proof.Spec

noncomputable section

namespace Cert.KernelIdeal.Whole

open Cert.KernelIdeal Cert.KernelIdeal.Gen Cert.KernelIdeal.Value Cert.KernelIdeal.Staged Idealize.ShloMosaic
  Idealize.ShloMosaic.TcCoe Idealize.SL.Sem Idealize.ShloMosaic.ValueIdx
open scoped BigOperators

variable (m : (ℓ : Loc nD τ sig) → Buf (Elt Ideal) ℓ)

/-- The argument x, as an array of extended reals. -/
abbrev argX (c : Dev nD) : S8192x4096.Idx → EReal := m ((c : Thread nD τ).loc main_arg0)

/-- The argument b, as an array of extended reals. -/
abbrev argB (c : Dev nD) : S4096.Idx → EReal := m ((c : Thread nD τ).loc main_arg3)

/-- The generated fold at entry (r, o) is the whole product sum plus the bias. -/
theorem G3_apply (c : Dev nD) (r : Fin 8192) (o : Fin 4096) :
    Value.G3 (F := Ideal) m c (ix2 r o)
      = (∑ k : Fin 4096, argX m c (ix2 r k) * maskedW m c (ix2 o k)) + argB m c (ix1 o) := by
  have hN : cfg0.N = 128 := N_0
  have hr := r.isLt
  have ho := o.isLt
  have hrun : run3Of (ix2 r o) = 4 * (r.val / 2048) + o.val / 1024 := by
    show 4 * (r.val / 2048 - 0) + 1 * (o.val / 1024 - 0) = _
    omega
  have hq : 8 * run3Of (ix2 r o) + 7 < cfg0.N := by rw [hrun]; omega
  have hloc : loc3Of (ix2 r o)
      = ix2 (⟨r.val % 2048, Nat.mod_lt _ (by decide)⟩ : Fin 2048) (⟨o.val % 1024, Nat.mod_lt _ (by decide)⟩ : Fin 1024) :=
    eq_ix2 _
  unfold Value.G3
  rw [dif_pos hq, hloc]
  generalize hb : 8 * run3Of (ix2 r o) = b at hq
  rw [hrun] at hb
  -- the run's arithmetic, over the three sequences of blocks
  refine (Entry.run_apply (N := cfg0.N)
    (fun n h => (iblk m c 0 ⟨n, h⟩ : Vec Ideal S2048x512 .bf16))
    (fun n h => (iblk m c 1 ⟨n, h⟩ : Vec Ideal S1024x512 .bf16))
    (fun n h => (iblk m c 2 ⟨n, h⟩ : Vec Ideal S1x1024 .f32)) b (by omega) hq _ _).trans ?_
  -- the bias block's entry is b(o)
  have hbias : (iblk m c 2 ⟨b + 7, hq⟩ : Vec Ideal S1x1024 .f32)
        (ix2 (0 : Fin 1) (⟨o.val % 1024, Nat.mod_lt _ (by decide)⟩ : Fin 1024))
      = argB m c (ix1 o) :=
    b_block m c ⟨b + 7, hq⟩ _ o (by show o.val = (b + 7) / 8 % 4 * 1024 + o.val % 1024; omega)
  refine (congrArg (_ + ·) hbias).trans ?_
  -- each step's contribution is its block of the whole product sum
  refine BlockSum.accumulate_eq
    (fun k => argX m c (ix2 r k) * maskedW m c (ix2 o k)) _ _ (fun s => ?_)
  have hs := s.isLt
  have hlt : b + s.val < cfg0.N := by omega
  unfold Entry.addend
  rw [dif_pos hlt]
  refine Finset.sum_congr rfl fun k _ => ?_
  have hk := k.isLt
  exact congrArg₂ (· * ·)
    (x_block m c ⟨b + s.val, hlt⟩ _ k r (BlockSum.pos s k)
      (by show r.val = (b + s.val) / 32 * 2048 + r.val % 2048; omega)
      (by show 512 * s.val + k.val = (b + s.val) % 8 * 512 + k.val; omega))
    (w_block m c ⟨b + s.val, hlt⟩ _ k o (BlockSum.pos s k)
      (by show o.val = (b + s.val) / 8 % 4 * 1024 + o.val % 1024; omega)
      (by show 512 * s.val + k.val = (b + s.val) % 8 * 512 + k.val; omega))

/-- So the array the kernel leaves is the masked linear layer of its arguments. -/
theorem G3_eq (c : Dev nD) :
    Value.G3 (F := Ideal) m c
      = Spec.G (argX m c) (maskedW m c) (argB m c) := by
  funext i
  obtain ⟨r, o, rfl⟩ : ∃ (r : Fin 8192) (o : Fin 4096), i = ix2 r o := ⟨i 0, i 1, eq_ix2 i⟩
  exact G3_apply m c r o

end Cert.KernelIdeal.Whole

end
-- ==== Proof.RefRead.lean ====
/-
  The reference computes the masked linear layer `Spec.G` of its arguments: its matrix product at entry (r, o) is the
  sum over the 4096 input features of x(r, k) times the masked weight at (o, k), and the bias, broadcast first to a row
  and then to every row, contributes b(o).
-/
import proofs.«170273_j33251636806222_2_alg».proof.Proof.Gen.ReferenceIdeal.Read
import proofs.«170273_j33251636806222_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open scoped BigOperators

/-- The reference's result, entry by entry, is `Spec.G` of x, the masked weight and the bias. -/
theorem result_eq (x0 : (⟨S8192x4096, .f32⟩ : BufTy).Contents (Elt Ideal)) (x1 : (⟨S4096x4096, .f32⟩ : BufTy).Contents (Elt Ideal))
    (x2 : (⟨S4096x4096, .i1⟩ : BufTy).Contents (Elt Ideal)) (x3 : (⟨S4096, .f32⟩ : BufTy).Contents (Elt Ideal)) :
    val_main_v4 (F := Ideal) x0 x1 x2 x3 = Spec.G x0 (val_main_v0 (F := Ideal) x1 x2) x3 := by
  funext i
  have el : ∀ k : Fin 4096, lidx_main_v1 i k = ix2 (i 0) k := fun k =>
    funext fun a => Fin.ext (by match a with | ⟨0, _⟩ => rfl | ⟨1, _⟩ => rfl)
  have er : ∀ k : Fin 4096, ridx_main_v1 i k = ix2 (i 1) k := fun k =>
    funext fun a => Fin.ext (by match a with | ⟨0, _⟩ => rfl | ⟨1, _⟩ => rfl)
  have eb : idx_main_v2 (idx_main_v3 i) = ix1 (i 1) :=
    funext fun a => Fin.ext (by match a with | ⟨0, _⟩ => rfl)
  rw [val_main_v4_apply, val_main_v1_apply, val_main_v3_apply, val_main_v2_apply]
  simp only [el, er, eb]
  rfl

end Cert.ReferenceIdeal.RefValue

end
-- ==== Proof.lean ====
/-
  The masked linear layer  y = x · where(mask, W, 0)ᵀ + b  over [8192, 4096] inputs and a [4096, 4096] weight.

  The kernel casts x and the masked weight to a narrower float format (the identity on extended reals), then computes
  each [2048, 1024] output block over eight grid steps: the block is cleared at the first step, the product of a
  [2048, 512] slice of x with a [1024, 512] slice of the masked weight is added at every step, and the bias row is
  added at the last. The reference is one matrix product over all 4096 input features plus the broadcast bias.
  Entry (r, o) of both is  Σ_k x(r, k) · w(o, k) + b(o)  (`Spec.G`): the kernel's eight partial sums of 512 terms, added in
  order into zero, are the whole sum by associativity and commutativity of addition alone, so the inputs'
  finiteness is not used for the values. The kernel's value is its generated accumulated form read entry by entry
  (Proof/KernelValue.lean), the reference's its generated run read entry by entry (Proof/RefRead.lean).
-/
import proofs.«170273_j33251636806222_2_alg».proof.Defs
import proofs.«170273_j33251636806222_2_alg».proof.Proof.Gen.Kernel.Frame
import proofs.«170273_j33251636806222_2_alg».proof.Proof.Gen.KernelIdeal.Value
import proofs.«170273_j33251636806222_2_alg».proof.Proof.Gen.Pre_finite_inputs
import proofs.«170273_j33251636806222_2_alg».proof.Proof.Gen.ReferenceIdeal.Run
import proofs.«170273_j33251636806222_2_alg».proof.Proof.KernelValue
import proofs.«170273_j33251636806222_2_alg».proof.Proof.RefRead
import Idealize.ShloMosaic.Adequacy
import Idealize.ShloMosaic.Init

noncomputable section

namespace Cert.Proof

open Idealize.ShloMosaic Idealize.SL.Sem

/-- The idealized kernel terminates without fault and leaves its arguments as they were: its value run, weakened. -/
theorem frame_KernelIdeal : frame_KernelIdeal := fun m ρ _ =>
  (θ_run Cert.KernelIdeal.defs _ _).mono (fun _ h c => (h c).2) (Cert.KernelIdeal.Value.run (F := Ideal) m ρ)

/-- Likewise the idealized reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the four arguments both programs end with the same array: each is `Spec.G` of x, the
    masked weight and the bias. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.ReferenceIdeal.Read.val_main_v4_eq, Cert.ReferenceIdeal.RefValue.result_eq, Cert.KernelIdeal.Whole.G3_eq]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
